-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2x2048 : Shape := ⟨2, ![2, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : IVec S2x2048 32) (main_arg2 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S16384x2048 : Shape := ⟨2, ![16384, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S2048x1 : Shape := ⟨2, ![2048, 1]⟩
abbrev S_ : Shape := ⟨0, ![]⟩
abbrev S512x2048 : Shape := ⟨2, ![512, 2048]⟩

abbrev nBuf : Space → Nat
  | .hbm => 18
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2x2048, .i32⟩
  | .hbm, ⟨2, _⟩ => ⟨S2048x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S2048x1, .f32⟩
  | .hbm, ⟨7, _⟩ => ⟨S2048x2048, .f32⟩
  | .hbm, ⟨8, _⟩ => ⟨S2048x2048, .f32⟩
  | .hbm, ⟨9, _⟩ => ⟨S1x2048, .f32⟩
  | .hbm, ⟨10, _⟩ => ⟨S2048, .f32⟩
  | .hbm, ⟨11, _⟩ => ⟨S2048x1, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S2048x2048, .f32⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x2048_S1x2048_0_0 : S2x2048.Slices ![0, 0] S1x2048
  shapeCasts_S1x2048_S2048 : S1x2048.ShapeCasts S2048
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  slices_S2x2048_S1x2048_1_0 : S2x2048.Slices ![1, 0] S1x2048
  bcast_S_S2048x2048 : S_.BroadcastsInDim S2048x2048 (![] : Fin 0 → Fin S2048x2048.rank)
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .f32 = 32 ∨ (Rect.block (s := S2048x2048) S2048x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2x2048 : Shape := ⟨2, ![2, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x2048, .i32⟩
  | .hbm, ⟨2, _⟩ => ⟨S2048x2048, .f32⟩
  | .hbm, ⟨3, _⟩ => ⟨S2x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  slices_S2x2048_S1x2048_0_0 : S2x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S2x2048_S1x2048_1_0 : S2x2048.Slices ![1, 0] S1x2048
  bcast_S_S16384x2048 : S_.BroadcastsInDim S16384x2048 (![] : Fin 0 → Fin S16384x2048.rank)
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.KernelBlock.lean ====
/-
  What the kernel body stores for one block of rows.  The body loads a 512 × 2048 block X of the input and the two
  2048 × 2048 folded matrices A and B, and stores (X · A) · B, both products into zero accumulators.  At row r and
  column q of the block that is ∑ₖ₂ (∑ₖ₁ X(r,k₁) · A(k₁,k₂)) · B(k₂,q).
-/
import proofs.«144071_j47837345743070_2_alg».proof.Proof.Gen.KernelIdeal.Skeleton
import proofs.«144071_j47837345743070_2_alg».proof.Proof.LibPlainDot
import Idealize.ShloMosaic.Lib.Pipeline.Value

noncomputable section

namespace Cert.KernelIdeal.Block

open Cert.KernelIdeal Cert.KernelIdeal.Gen
open Idealize.ShloMosaic Idealize.ShloMosaic.ValueIdx

/-- The product's left operand is read at the output's row. -/
theorem lhs_row (j : S512x2048.Idx) (k : dot_S512x2048_S2048x2048_S512x2048_1_0_0_1_n_n.contr.Idx) :
    (dot_S512x2048_S2048x2048_S512x2048_1_0_0_1_n_n.lhsIdx j k 0).val = (j 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

/-- The product's right operand is read at the output's column. -/
theorem rhs_col (j : S512x2048.Idx) (k : dot_S512x2048_S2048x2048_S512x2048_1_0_0_1_n_n.contr.Idx) :
    (dot_S512x2048_S2048x2048_S512x2048_1_0_0_1_n_n.rhsIdx j k 1).val = (j 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- One product of a 512 × 2048 block by a 2048 × 2048 matrix into the zero accumulator, at an entry. -/
theorem product_apply (x : FVec Ideal S512x2048 .f32) (a : FVec Ideal S2048x2048 .f32) (r : Fin 512) (q : Fin 2048) :
    FloatOps.matmul dot_S512x2048_S2048x2048_S512x2048_1_0_0_1_n_n (some .fp32) x a (constant S512x2048 .f32 0x00000000#32) (ix2 r q)
      = ∑ k : Fin 2048, x (ix2 r k) * a (ix2 k q) :=
  Cert.LibPlainDot.matmul_zero_apply dot_S512x2048_S2048x2048_S512x2048_1_0_0_1_n_n rfl rfl rfl rfl lhs_row rhs_col (some .fp32) x a r q

/-- The stored block at row r, column q: the two products chained. -/
theorem stored_apply (x : Vec Ideal S512x2048 .f32) (a b : Vec Ideal S2048x2048 .f32) (r : Fin 512) (q : Fin 2048) :
    k0_pay1 (F := Ideal) x a b (ix2 r q) = ∑ k₂ : Fin 2048, (∑ k₁ : Fin 2048, x (ix2 r k₁) * a (ix2 k₁ k₂)) * b (ix2 k₂ q) := by
  unfold k0_pay1
  simp only [shapeCast_self]
  refine (product_apply _ b r q).trans ?_
  exact Finset.sum_congr rfl fun k₂ _ => congrArg (· * b (ix2 k₂ q)) (product_apply x a r k₂)

end Cert.KernelIdeal.Block

end
-- ==== Proof.LibScaledSum.lean ====
/-
  Scaling a finite sum of extended reals.  On the extended reals multiplication does not distribute over addition in
  general (⊤ + ⊥ is ⊥, so a factor that flips a sign breaks it), but a factor c with 0 ≤ c < ⊤ does distribute: it keeps
  the sign of every term and sends ⊤ to ⊤ or 0 and ⊥ to ⊥ or 0 uniformly.  Hence such a factor moves in and out of any
  finite sum, whatever the terms are — no finiteness of the terms is needed.
-/
import Mathlib.Data.EReal.Inv
import Mathlib.Algebra.BigOperators.Group.Finset.Basic

namespace Cert.LibScaledSum

open Finset

/-- A factor c with 0 ≤ c and c ≠ ⊤ distributes over a finite sum of extended reals: (∑ f i) · c = ∑ (f i · c). -/
theorem sum_mul {ι : Type*} (s : Finset ι) (f : ι → EReal) {c : EReal} (h0 : 0 ≤ c) (ht : c ≠ ⊤) :
    (∑ i ∈ s, f i) * c = ∑ i ∈ s, f i * c := by
  classical
  refine Finset.induction_on s ?_ ?_
  · rw [Finset.sum_empty, Finset.sum_empty, zero_mul]
  · intro a s ha ih
    rw [Finset.sum_insert ha, Finset.sum_insert ha, EReal.right_distrib_of_nonneg_of_ne_top h0 ht, ih]

/-- The same with the factor on the left. -/
theorem mul_sum {ι : Type*} (s : Finset ι) (f : ι → EReal) {c : EReal} (h0 : 0 ≤ c) (ht : c ≠ ⊤) :
    c * ∑ i ∈ s, f i = ∑ i ∈ s, c * f i := by
  rw [mul_comm, sum_mul s f h0 ht]
  exact Finset.sum_congr rfl fun i _ => mul_comm _ _

end Cert.LibScaledSum
-- ==== Proof.Spec.lean ====
/-
  The function both programs compute, and the law that joins their two arrangements.

  Write x for the 16384 × 2048 input, s₀ and s₁ for the two rows of the sign array (as numbers), H for the
  2048 × 2048 matrix and c for the final scale.  The result at row p, column q is

      ( ∑ₖ₂ ( ( ∑ₖ₁ (x(p,k₁) · s₀(k₁)) · H(k₁,k₂) ) · s₁(k₂) ) · H(k₂,q) ) · c :

  flip signs, transform, flip signs, transform, scale.  The other arrangement folds each sign row, and the scale, into a
  copy of the matrix first — H₀(k₁,k₂) = H(k₁,k₂) · s₀(k₁) and H₁(k₂,q) = (H(k₂,q) · s₁(k₂)) · c — and then takes two plain
  matrix products, ∑ₖ₂ (∑ₖ₁ x(p,k₁) · H₀(k₁,k₂)) · H₁(k₂,q).  Term by term the two differ only by the order and grouping of
  factors; the one real step is moving c out of the outer sum, which on the extended reals is sound because c is a
  finite nonnegative number (LibScaledSum).  No entry of x, s or H needs to be finite.
-/
import Idealize.ShloMosaic.PureOps.Ideal
import Idealize.ShloMosaic.Lib.ValueIdx
import proofs.«144071_j47837345743070_2_alg».proof.Proof.LibScaledSum

noncomputable section

namespace Cert.Spec

open Idealize.ShloMosaic Idealize.ShloMosaic.ValueIdx

/-- The final scale, 2⁻¹¹ = 1/2048 as an f32 word. -/
def scale : EReal := Ideal.ofBits .f32 0x3A000000#32

/-- The word 0x3A000000 is the number 1/2048. -/
theorem scale_eq : scale = (((1 : ℝ) / 2048 : ℝ) : EReal) := by
  unfold scale
  simp [Ideal.ofBits, Ideal.ieee, -EReal.coe_mul]; norm_num

theorem scale_nonneg : 0 ≤ scale := by
  rw [scale_eq]; exact EReal.coe_nonneg.mpr (by norm_num)

theorem scale_ne_top : scale ≠ ⊤ := by
  rw [scale_eq]; exact EReal.coe_ne_top _

/-- Sign flip, transform, sign flip, transform, scale: the result at row p, column q. -/
def entry (x : (⟨2, ![16384, 2048]⟩ : Shape).Idx → EReal) (s : (⟨2, ![2, 2048]⟩ : Shape).Idx → EReal)
    (h : (⟨2, ![2048, 2048]⟩ : Shape).Idx → EReal) (p : Fin 16384) (q : Fin 2048) : EReal :=
  (∑ k₂ : Fin 2048, ((∑ k₁ : Fin 2048, (x (ix2 p k₁) * s (ix2 0 k₁)) * h (ix2 k₁ k₂)) * s (ix2 1 k₂)) * h (ix2 k₂ q)) * scale

/-- The whole result array. -/
def result (x : (⟨2, ![16384, 2048]⟩ : Shape).Idx → EReal) (s : (⟨2, ![2, 2048]⟩ : Shape).Idx → EReal)
    (h : (⟨2, ![2048, 2048]⟩ : Shape).Idx → EReal) : (⟨2, ![16384, 2048]⟩ : Shape).Idx → EReal :=
  fun i => entry x s h (i 0) (i 1)

theorem result_ix2 (x : (⟨2, ![16384, 2048]⟩ : Shape).Idx → EReal) (s : (⟨2, ![2, 2048]⟩ : Shape).Idx → EReal)
    (h : (⟨2, ![2048, 2048]⟩ : Shape).Idx → EReal) (p : Fin 16384) (q : Fin 2048) :
    result x s h (ix2 p q) = entry x s h p q := rfl

/-- The law: two plain products against the matrices with the signs (and the scale) folded in give the same number.
    Stated over abstract finite index types and arbitrary extended reals. -/
theorem folded_eq {K : Type*} [Fintype K] (x s₀ s₁ hq : K → EReal) (h : K → K → EReal) {c : EReal} (h0 : 0 ≤ c) (ht : c ≠ ⊤) :
    (∑ k₂ : K, (∑ k₁ : K, x k₁ * (h k₁ k₂ * s₀ k₁)) * ((hq k₂ * s₁ k₂) * c))
      = (∑ k₂ : K, ((∑ k₁ : K, (x k₁ * s₀ k₁) * h k₁ k₂) * s₁ k₂) * hq k₂) * c := by
  rw [Cert.LibScaledSum.sum_mul _ _ h0 ht]
  refine Finset.sum_congr rfl fun k₂ _ => ?_
  have e : (∑ k₁ : K, x k₁ * (h k₁ k₂ * s₀ k₁)) = ∑ k₁ : K, (x k₁ * s₀ k₁) * h k₁ k₂ :=
    Finset.sum_congr rfl fun k₁ _ => by rw [mul_comm (h k₁ k₂) (s₀ k₁), mul_assoc]
  rw [e, mul_comm (hq k₂) (s₁ k₂), mul_assoc, mul_assoc, mul_assoc]

end Cert.Spec

end
-- ==== Proof.KernelWeights.lean ====
/-
  The two folded matrices the kernel's region finds.  Before the region the host turns row 0 of the converted sign array
  into a column, repeats it across, and multiplies it into the matrix H: A(k₁,k₂) = H(k₁,k₂) · s₀(k₁).  It does the same
  with row 1 and then multiplies by the splat of the scale: B(k₂,q) = (H(k₂,q) · s₁(k₂)) · c.
-/
import proofs.«144071_j47837345743070_2_alg».proof.Proof.Gen.KernelIdeal.Frame
import proofs.«144071_j47837345743070_2_alg».proof.Proof.Spec
import Idealize.ShloMosaic.Lib.Pipeline.Value
import Idealize.ShloMosaic.Lib.StableHlo.Run

noncomputable section

namespace Cert.KernelIdeal.Weights

open Cert.KernelIdeal Cert.KernelIdeal.Gen
open Idealize.ShloMosaic Idealize.ShloMosaic.TcCoe Idealize.ShloMosaic.ValueIdx Idealize.SL.Sem Idealize.ShloMosaic.StableHlo

/-- Row 0 of a 2 × 2048 array, as a column repeated across 2048 columns: entry (k₁, k₂) is the row's entry k₁. -/
theorem column0_apply {α : Type} (y : S2x2048.Idx → α) (k₁ k₂ : Fin 2048) :
    broadcastInDim S2048x2048 ![0, 1] bcast_S2048x1_S2048x2048_0_1
      (broadcastInDim S2048x1 ![0] bcast_S2048_S2048x1_0
        (shapeCast S2048 (extractStridedSlice S1x2048 ![0, 0] y slices_S2x2048_S1x2048_0_0) shapeCasts_S1x2048_S2048)) (ix2 k₁ k₂)
      = y (ix2 0 k₁) := by
  refine (broadcastInDim_apply _ bcast_S2048x1_S2048x2048_0_1 _ (ix2 k₁ k₂) (ix2 k₁ (0 : Fin 1)) (fun a => ?_)).trans ?_
  · match a with
    | ⟨0, _⟩ => show k₁.val = if (2048 : Nat) = 1 then 0 else k₁.val; rw [if_neg (by decide)]
    | ⟨1, _⟩ => show 0 = if (1 : Nat) = 1 then 0 else k₂.val; rw [if_pos rfl]
  refine (broadcastInDim_apply _ bcast_S2048_S2048x1_0 _ (ix2 k₁ (0 : Fin 1)) (ix1 k₁) (fun a => ?_)).trans ?_
  · match a with
    | ⟨0, _⟩ => show k₁.val = if (2048 : Nat) = 1 then 0 else k₁.val; rw [if_neg (by decide)]
  refine (shapeCast_apply _ shapeCasts_S1x2048_S2048 (ix1 k₁) (ix2 (0 : Fin 1) k₁) ?_).trans ?_
  · rw [Shape.rowMajor_val_two, Shape.rowMajor_val_one]; show 0 * 2048 + k₁.val = k₁.val; omega
  exact extractStridedSlice_apply ![0, 0] y slices_S2x2048_S1x2048_0_0 (ix2 (0 : Fin 1) k₁) (ix2 0 k₁) (fun a => by
    match a with
    | ⟨0, _⟩ => rfl
    | ⟨1, _⟩ => show k₁.val = 0 + k₁.val; omega)

/-- The same for row 1. -/
theorem column1_apply {α : Type} (y : S2x2048.Idx → α) (k₁ k₂ : Fin 2048) :
    broadcastInDim S2048x2048 ![0, 1] bcast_S2048x1_S2048x2048_0_1
      (broadcastInDim S2048x1 ![0] bcast_S2048_S2048x1_0
        (shapeCast S2048 (extractStridedSlice S1x2048 ![1, 0] y slices_S2x2048_S1x2048_1_0) shapeCasts_S1x2048_S2048)) (ix2 k₁ k₂)
      = y (ix2 1 k₁) := by
  refine (broadcastInDim_apply _ bcast_S2048x1_S2048x2048_0_1 _ (ix2 k₁ k₂) (ix2 k₁ (0 : Fin 1)) (fun a => ?_)).trans ?_
  · match a with
    | ⟨0, _⟩ => show k₁.val = if (2048 : Nat) = 1 then 0 else k₁.val; rw [if_neg (by decide)]
    | ⟨1, _⟩ => show 0 = if (1 : Nat) = 1 then 0 else k₂.val; rw [if_pos rfl]
  refine (broadcastInDim_apply _ bcast_S2048_S2048x1_0 _ (ix2 k₁ (0 : Fin 1)) (ix1 k₁) (fun a => ?_)).trans ?_
  · match a with
    | ⟨0, _⟩ => show k₁.val = if (2048 : Nat) = 1 then 0 else k₁.val; rw [if_neg (by decide)]
  refine (shapeCast_apply _ shapeCasts_S1x2048_S2048 (ix1 k₁) (ix2 (0 : Fin 1) k₁) ?_).trans ?_
  · rw [Shape.rowMajor_val_two, Shape.rowMajor_val_one]; show 0 * 2048 + k₁.val = k₁.val; omega
  exact extractStridedSlice_apply ![1, 0] y slices_S2x2048_S1x2048_1_0 (ix2 (0 : Fin 1) k₁) (ix2 1 k₁) (fun a => by
    match a with
    | ⟨0, _⟩ => rfl
    | ⟨1, _⟩ => show k₁.val = 0 + k₁.val; omega)

variable (m : (ℓ : Loc nD τ sig) → Buf (Elt Ideal) ℓ)

/-- The sign array as numbers, and the matrix H, as launched on core c. -/
abbrev sgn (c : Dev nD) : FVec Ideal S2x2048 .f32 := sitofp (F := Ideal) .f32 (m ((c : Thread nD τ).loc main_arg1))
abbrev mat (c : Dev nD) : FVec Ideal S2048x2048 .f32 := m ((c : Thread nD τ).loc main_arg2)

/-- The first folded matrix as the region finds it: the host operations' term. -/
theorem first_term (c : Dev nD) : V m c main_v5 =
    (mulf (mat m c) (broadcastInDim S2048x2048 ![0, 1] bcast_S2048x1_S2048x2048_0_1
      (broadcastInDim S2048x1 ![0] bcast_S2048_S2048x1_0
        (shapeCast S2048 (extractStridedSlice S1x2048 ![0, 0] (sgn m c) slices_S2x2048_S1x2048_0_0) shapeCasts_S1x2048_S2048)))
      : FVec Ideal S2048x2048 .f32) := by
  dsimp only [Gen.V, Gen.hostOps0]; after_results; rfl

/-- The second folded matrix as the region finds it. -/
theorem second_term (c : Dev nD) : V m c main_v12 =
    (mulf (mulf (mat m c) (broadcastInDim S2048x2048 ![0, 1] bcast_S2048x1_S2048x2048_0_1
      (broadcastInDim S2048x1 ![0] bcast_S2048_S2048x1_0
        (shapeCast S2048 (extractStridedSlice S1x2048 ![1, 0] (sgn m c) slices_S2x2048_S1x2048_1_0) shapeCasts_S1x2048_S2048))))
      (broadcastInDim S2048x2048 ![] bcast_S_S2048x2048 (constant (F := Ideal) S_ .f32 0x3A000000#32))
      : FVec Ideal S2048x2048 .f32) := by
  dsimp only [Gen.V, Gen.hostOps0]; after_results; rfl

/-- A(k₁,k₂) = H(k₁,k₂) · s₀(k₁). -/
theorem first_apply (c : Dev nD) (k₁ k₂ : Fin 2048) :
    (V m c main_v5 : S2048x2048.Idx → EReal) (ix2 k₁ k₂) = mat m c (ix2 k₁ k₂) * sgn m c (ix2 0 k₁) := by
  rw [first_term, mulf_apply, column0_apply]

/-- B(k₂,q) = (H(k₂,q) · s₁(k₂)) · c. -/
theorem second_apply (c : Dev nD) (k₂ q : Fin 2048) :
    (V m c main_v12 : S2048x2048.Idx → EReal) (ix2 k₂ q) = (mat m c (ix2 k₂ q) * sgn m c (ix2 1 k₂)) * Cert.Spec.scale := by
  rw [second_term, mulf_apply, mulf_apply, column1_apply,
    broadcastInDim_apply _ bcast_S_S2048x2048 _ (ix2 k₂ q) ix0 (fun a => a.elim0)]
  rfl

end Cert.KernelIdeal.Weights

end
-- ==== Proof.KernelArray.lean ====
/-
  From blocks to the whole array.  The grid has 32 points; point t loads rows 512·t … 512·t + 511 of the input and the
  two folded matrices whole (their block index is 0 at every point), and writes back rows 512·t … 512·t + 511 of the
  result.  So what point t writes back is the block of the specification's result array at those rows: the stored
  block is two plain products against the folded matrices (KernelBlock), the folded matrices carry the signs and the
  scale (KernelWeights), and the law of Spec rearranges that into the result's entry.  The 32 blocks cover the 16384
  rows, so the array after the run is the result array.
-/
import proofs.«144071_j47837345743070_2_alg».proof.Proof.Gen.KernelIdeal.Value
import proofs.«144071_j47837345743070_2_alg».proof.Proof.KernelBlock
import proofs.«144071_j47837345743070_2_alg».proof.Proof.KernelWeights
import proofs.«144071_j47837345743070_2_alg».proof.Proof.Spec

noncomputable section

namespace Cert.KernelIdeal.Whole

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block index of each window at each of the 32 points: the input and the result move one block of rows per
    point, the two matrices stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input as launched on core c. -/
abbrev xin (c : Dev nD) : FVec Ideal S16384x2048 .f32 := m ((c : Thread nD τ).loc main_arg0)

/-- The array the run leaves in the result buffer of core c. -/
abbrev whole (c : Dev nD) : FVec Ideal S16384x2048 .f32 :=
  Cert.Spec.result (xin m c) (Weights.sgn m c) (Weights.mat m c)

/-- Row r of point t's block is row 512·t + r of the array. -/
def rowOf (t : Fin cfg0.N) (r : Fin 512) : Fin 16384 :=
  ⟨t.val * 512 + r.val, by have := t.isLt; have := r.isLt; have hN : cfg0.N = 32 := N_0; omega⟩

/-- The input block at point t: rows 512·t … of the input. -/
theorem input_block (c : Dev nD) (t : Fin cfg0.N) (r : Fin 512) (k : Fin 2048) :
    (iblk m c 0 t : Vec Ideal S512x2048 .f32) (ix2 r k) = xin m c (ix2 (rowOf t r) k) := by
  obtain ⟨e0, e1, -⟩ := index_maps t
  unfold iblk
  rw [View.read_apply]
  show V m c main_arg0 _ = m ((c : Thread nD τ).loc main_arg0) _
  rw [V_main_arg0]
  refine congrArg (m ((c : Thread nD τ).loc main_arg0) : S16384x2048.Idx → EReal) ?_
  funext a; apply Fin.ext
  match a with
  | ⟨0, _⟩ => show win0_0.index t 0 * 512 + 1 * r.val = t.val * 512 + r.val; rw [e0]; omega
  | ⟨1, _⟩ => show win0_0.index t 1 * 2048 + 1 * k.val = k.val; rw [e1]; omega

/-- The first matrix's block at every point is the whole first folded matrix. -/
theorem first_block (c : Dev nD) (t : Fin cfg0.N) (k₁ k₂ : Fin 2048) :
    (iblk m c 1 t : Vec Ideal S2048x2048 .f32) (ix2 k₁ k₂) = (V m c main_v5 : S2048x2048.Idx → EReal) (ix2 k₁ k₂) := by
  obtain ⟨-, -, e2, e3, -⟩ := index_maps t
  unfold iblk
  rw [View.read_apply]
  show V m c main_v5 _ = V m c main_v5 _
  refine congrArg (V m c main_v5 : S2048x2048.Idx → EReal) ?_
  funext a; apply Fin.ext
  match a with
  | ⟨0, _⟩ => show win0_1.index t 0 * 2048 + 1 * k₁.val = k₁.val; rw [e2]; omega
  | ⟨1, _⟩ => show win0_1.index t 1 * 2048 + 1 * k₂.val = k₂.val; rw [e3]; omega

/-- The second matrix's block at every point is the whole second folded matrix. -/
theorem second_block (c : Dev nD) (t : Fin cfg0.N) (k₂ q : Fin 2048) :
    (iblk m c 2 t : Vec Ideal S2048x2048 .f32) (ix2 k₂ q) = (V m c main_v12 : S2048x2048.Idx → EReal) (ix2 k₂ q) := by
  obtain ⟨-, -, -, -, e4, e5, -⟩ := index_maps t
  unfold iblk
  rw [View.read_apply]
  show V m c main_v12 _ = V m c main_v12 _
  refine congrArg (V m c main_v12 : S2048x2048.Idx → EReal) ?_
  funext a; apply Fin.ext
  match a with
  | ⟨0, _⟩ => show win0_2.index t 0 * 2048 + 1 * k₂.val = k₂.val; rw [e4]; omega
  | ⟨1, _⟩ => show win0_2.index t 1 * 2048 + 1 * q.val = q.val; rw [e5]; omega

/-- What point t writes back is its block of rows of the result array. -/
theorem flushed_eq (c : Dev nD) (t : Fin cfg0.N) :
    (dats m 0 c).flushed 3 t = ((cfg0.win 3).blk t).view.read (Elt Ideal) (whole m c) := by
  rw [flushed3]
  unfold out0_3
  rw [View.canon_unit_zero zero_offsets]
  simp only [View.ld_unit_zero (S := S512x2048) zero_offsets, View.ld_unit_zero (S := S2048x2048) zero_offsets]
  obtain ⟨-, -, -, -, -, -, e6, e7⟩ := index_maps t
  funext j
  obtain ⟨r, q, rfl⟩ : ∃ (r : Fin 512) (q : Fin 2048), j = ix2 r q := ⟨j 0, j 1, eq_ix2 j⟩
  show k0_pay1 (iblk m c 0 t) (iblk m c 1 t) (iblk m c 2 t) (ix2 r q) = whole m c (((cfg0.win 3).blk t).view.emb (ix2 r q))
  have hemb : ((cfg0.win 3).blk t).view.emb (ix2 r q) = ix2 (rowOf t r) q := by
    funext a; apply Fin.ext
    match a with
    | ⟨0, _⟩ => show win0_3.index t 0 * 512 + 1 * r.val = t.val * 512 + r.val; rw [e6]; omega
    | ⟨1, _⟩ => show win0_3.index t 1 * 2048 + 1 * q.val = q.val; rw [e7]; omega
  rw [hemb]
  show _ = Cert.Spec.entry (xin m c) (Weights.sgn m c) (Weights.mat m c) (rowOf t r) q
  refine (Block.stored_apply (iblk m c 0 t) (iblk m c 1 t) (iblk m c 2 t) r q).trans ?_
  refine Eq.trans (Finset.sum_congr rfl fun k₂ _ => ?_)
    (Cert.Spec.folded_eq (fun k => xin m c (ix2 (rowOf t r) k)) (fun k => Weights.sgn m c (ix2 0 k))
      (fun k => Weights.sgn m c (ix2 1 k)) (fun k => Weights.mat m c (ix2 k q)) (fun a b => Weights.mat m c (ix2 a b))
      Cert.Spec.scale_nonneg Cert.Spec.scale_ne_top)
  rw [second_block, Weights.second_apply]
  refine congrArg (· * _) (Finset.sum_congr rfl fun k₁ _ => ?_)
  rw [input_block, first_block, Weights.first_apply]

/-- An index is in point t's block iff each coordinate is in the block's range. -/
theorem mem_block (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v13).slice (win0_3.rect t)).set ↔ _
  rw [View.set_slice_whole, Rect.mem_set_unit]
  exact Iff.rfl

/-- Every index of the result array is in the block of the point that holds its row: point (row / 512). -/
theorem covered (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  have hN : cfg0.N = 32 := N_0
  obtain ⟨t, ht⟩ : ∃ t : Fin cfg0.N, t.val = (i 0).val / 512 := ⟨⟨(i 0).val / 512, by omega⟩, rfl⟩
  obtain ⟨-, -, -, -, -, -, e6, e7⟩ := index_maps t
  refine ⟨t, flush0_3 t, ?_⟩
  rw [mem_block]
  intro a
  match a with
  | ⟨0, _⟩ => show win0_3.index t 0 * 512 ≤ (i 0).val ∧ (i 0).val < win0_3.index t 0 * 512 + 512; rw [e6, ht]; omega
  | ⟨1, _⟩ => show win0_3.index t 1 * 2048 ≤ (i 1).val ∧ (i 1).val < win0_3.index t 1 * 2048 + 2048; rw [e7]; omega

/-- The result array after the run. -/
theorem final (c : Dev nD) : (dats m 0 c).arrAt 3 cfg0.N = whole m c :=
  (dats m 0 c).arrAt_eq_of_cover 3 (whole m c) (fun t _ => flushed_eq m c t) covered

/-- The kernel's run: the result buffer ends at the result array, the arguments unchanged. -/
theorem run : θ_run defs (onTc (τ := τ) (main (F := Ideal))) ⟨m, fun _ => 0, ρ⟩ fun r => ∀ c : Dev nD,
      r.2.mem ((c : Thread nD τ).loc main_v13) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefResult.lean ====
/-
  The reference program's result, read entry by entry, is `Spec.result`: the sign rows reach the two elementwise
  products through a slice, a reshape and two broadcasts, which at entry (p, k) read row 0 (first pass) or row 1 (second
  pass) of the converted sign array at column k; each host matrix product at (p, q) is the plain sum over the
  contracted column; the last product is with the splat of the scale.
-/
import proofs.«144071_j47837345743070_2_alg».proof.Proof.Gen.ReferenceIdeal.Read
import proofs.«144071_j47837345743070_2_alg».proof.Proof.Spec

noncomputable section

namespace Cert.ReferenceIdeal.RefResult

open Cert.ReferenceIdeal Cert.ReferenceIdeal.Gen Cert.ReferenceIdeal.Read
open Idealize.ShloMosaic Idealize.ShloMosaic.ValueIdx

variable (x0 : (⟨S16384x2048, .f32⟩ : BufTy).Contents (Elt Ideal)) (x1 : (⟨S2x2048, .i32⟩ : BufTy).Contents (Elt Ideal))
  (x2 : (⟨S2048x2048, .f32⟩ : BufTy).Contents (Elt Ideal))

/-- The sign array as numbers. -/
abbrev sgn : S2x2048.Idx → EReal := sitofp (F := Ideal) .f32 x1

/-- The first pass's broadcast sign factor at (p, k) is row 0 of the signs at column k. -/
theorem signs_row0 (p : Fin 16384) (k : Fin 2048) :
    val_main_v4 (F := Ideal) x1 (ix2 p k) = sgn x1 (ix2 0 k) := by
  rw [val_main_v4_apply, val_main_v3_apply, val_main_v2_apply, val_main_v1_apply, val_main_v0_apply]
  refine congrArg (fun j => FloatOps.sitofp (F := Ideal) .f32 (x1 j)) (?_ : _ = ix2 0 k)
  funext a; apply Fin.ext
  match a with
  | ⟨0, _⟩ => rfl
  | ⟨1, _⟩ => exact Nat.mod_eq_of_lt k.isLt

/-- The second pass's broadcast sign factor at (p, k) is row 1 of the signs at column k. -/
theorem signs_row1 (p : Fin 16384) (k : Fin 2048) :
    val_main_v10 (F := Ideal) x1 (ix2 p k) = sgn x1 (ix2 1 k) := by
  rw [val_main_v10_apply, val_main_v9_apply, val_main_v8_apply, val_main_v7_apply, val_main_v0_apply]
  refine congrArg (fun j => FloatOps.sitofp (F := Ideal) .f32 (x1 j)) (?_ : _ = ix2 1 k)
  funext a; apply Fin.ext
  match a with
  | ⟨0, _⟩ => rfl
  | ⟨1, _⟩ => exact Nat.mod_eq_of_lt k.isLt

/-- After the first transform: entry (p, k₂) is ∑ₖ₁ (x(p,k₁) · s₀(k₁)) · H(k₁,k₂). -/
theorem first_pass (p : Fin 16384) (k₂ : Fin 2048) :
    val_main_v6 (F := Ideal) x0 x1 x2 (ix2 p k₂) = ∑ k₁ : Fin 2048, (x0 (ix2 p k₁) * sgn x1 (ix2 0 k₁)) * x2 (ix2 k₁ k₂) := by
  rw [val_main_v6_apply]
  refine Finset.sum_congr rfl fun k₁ _ => ?_
  have el : lidx_main_v6 (ix2 p k₂) k₁ = ix2 p k₁ := funext fun a => Fin.ext (by match a with | ⟨0, _⟩ => rfl | ⟨1, _⟩ => rfl)
  have er : ridx_main_v6 (ix2 p k₂) k₁ = ix2 k₁ k₂ := funext fun a => Fin.ext (by match a with | ⟨0, _⟩ => rfl | ⟨1, _⟩ => rfl)
  rw [el, er, val_main_v5_apply, signs_row0]
  rfl

/-- After the second transform: entry (p, q) is ∑ₖ₂ ((first pass at (p,k₂)) · s₁(k₂)) · H(k₂,q). -/
theorem second_pass (p : Fin 16384) (q : Fin 2048) :
    val_main_v12 (F := Ideal) x0 x1 x2 (ix2 p q)
      = ∑ k₂ : Fin 2048, ((∑ k₁ : Fin 2048, (x0 (ix2 p k₁) * sgn x1 (ix2 0 k₁)) * x2 (ix2 k₁ k₂)) * sgn x1 (ix2 1 k₂)) * x2 (ix2 k₂ q) := by
  rw [val_main_v12_apply]
  refine Finset.sum_congr rfl fun k₂ _ => ?_
  have el : lidx_main_v12 (ix2 p q) k₂ = ix2 p k₂ := funext fun a => Fin.ext (by match a with | ⟨0, _⟩ => rfl | ⟨1, _⟩ => rfl)
  have er : ridx_main_v12 (ix2 p q) k₂ = ix2 k₂ q := funext fun a => Fin.ext (by match a with | ⟨0, _⟩ => rfl | ⟨1, _⟩ => rfl)
  rw [el, er, val_main_v11_apply, first_pass, signs_row1]
  rfl

/-- The reference's last stage is the specification's result array. -/
theorem reference_is_result : val_main_v14 (F := Ideal) x0 x1 x2 = Cert.Spec.result x0 (sgn x1) x2 := by
  funext i
  obtain ⟨p, q, rfl⟩ : ∃ (p : Fin 16384) (q : Fin 2048), i = ix2 p q := ⟨i 0, i 1, eq_ix2 i⟩
  rw [Cert.Spec.result_ix2, val_main_v14_apply, val_main_v13_apply, val_main_cst_apply, second_pass]
  rfl

end Cert.ReferenceIdeal.RefResult

end
-- ==== Proof.lean ====
/-
  Two sign-flipped transforms and a scale, against the same with the signs and the scale folded into the matrices.

  The reference flips the signs of a 16384 × 2048 input x by the first row s₀ of a sign array, multiplies by a
  2048 × 2048 matrix H, flips by the second row s₁, multiplies by H again and scales by c = 1/2048:
      result(p,q) = ( ∑ₖ₂ ( ( ∑ₖ₁ (x(p,k₁) · s₀(k₁)) · H(k₁,k₂) ) · s₁(k₂) ) · H(k₂,q) ) · c.
  The kernel first forms A(k₁,k₂) = H(k₁,k₂) · s₀(k₁) and B(k₂,q) = (H(k₂,q) · s₁(k₂)) · c on the host, and then, for each
  of 32 blocks of 512 rows, stores (X · A) · B.  Entry by entry the two are the same extended real: the factors of each
  term are regrouped (multiplication on the extended reals is commutative and associative), and c moves out of the outer
  sum because it is a finite nonnegative number (Spec, LibScaledSum).  Nothing else is used — no entry of x, of the signs
  or of H has to be finite —, so the precondition is not opened.

  The idealization rewrote nothing, so that conjunct is trivial; the three frames are the generated ones (the
  reference's is its generated run with the result dropped).
-/
import proofs.«144071_j47837345743070_2_alg».proof.Defs
import proofs.«144071_j47837345743070_2_alg».proof.Proof.Gen.Kernel
import proofs.«144071_j47837345743070_2_alg».proof.Proof.Gen.Kernel.Skeleton
import proofs.«144071_j47837345743070_2_alg».proof.Proof.Gen.Kernel.Launch
import proofs.«144071_j47837345743070_2_alg».proof.Proof.Gen.Kernel.Points
import proofs.«144071_j47837345743070_2_alg».proof.Proof.Gen.Kernel.Frame
import proofs.«144071_j47837345743070_2_alg».proof.Proof.Gen.KernelIdeal
import proofs.«144071_j47837345743070_2_alg».proof.Proof.Gen.KernelIdeal.Skeleton
import proofs.«144071_j47837345743070_2_alg».proof.Proof.Gen.KernelIdeal.Launch
import proofs.«144071_j47837345743070_2_alg».proof.Proof.Gen.KernelIdeal.Points
import proofs.«144071_j47837345743070_2_alg».proof.Proof.Gen.KernelIdeal.Frame
import proofs.«144071_j47837345743070_2_alg».proof.Proof.Gen.ReferenceIdeal
import proofs.«144071_j47837345743070_2_alg».proof.Proof.Gen.Pre_finite_inputs
import proofs.«144071_j47837345743070_2_alg».proof.Proof.Gen.KernelIdeal.Value
import proofs.«144071_j47837345743070_2_alg».proof.Proof.Gen.ReferenceIdeal.Run
import proofs.«144071_j47837345743070_2_alg».proof.Proof.Gen.ReferenceIdeal.Read
import proofs.«144071_j47837345743070_2_alg».proof.Proof.KernelArray
import proofs.«144071_j47837345743070_2_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The kernel's result array is the specification's result of its arguments (KernelArray); the reference's last stage
    is the specification's result of its arguments (RefResult); the arguments agree. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefResult.reference_is_result,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
